-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x4096x64 : Shape := ⟨4, ![4, 12, 4096, 64]⟩
abbrev S4x4096 : Shape := ⟨2, ![4, 4096]⟩
abbrev S_ : Shape := ⟨0, ![]⟩

class Facts : Prop where
  bcast_S_S4x12x4096x64 : S_.BroadcastsInDim S4x12x4096x64 (![] : Fin 0 → Fin S4x12x4096x64.rank)
  reducesTo_S4x12x4096x64_S_d0_1_2_3 : S4x12x4096x64.ReducesTo [0, 1, 2, 3] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  main_v18

def fn {F : FTy → Type} [FloatOps F] (main_arg0 : FVec F S4x12x4096x64 .f32) (main_arg1 : FVec F S4x12x4096x64 .f32) (main_arg2 : FVec F S4x12x4096x64 .f32) (main_arg3 : FVec F S4x4096 .f32) : IVec S_ 1 :=
  let main_v0 : FVec F S4x12x4096x64 .f32 := Host.absf main_arg0
  let main_cst : FVec F S_ .f32 := constant S_ .f32 0x7F800000#32
  let main_v1 : FVec F S4x12x4096x64 .f32 := broadcastInDim S4x12x4096x64 ![] bcast_S_S4x12x4096x64 main_cst
  let main_v2 : IVec S4x12x4096x64 1 := cmpf .olt main_v0 main_v1
  let main_c : IVec S_ 1 := constantI S_ 1 1#1
  let main_v3 : IVec S_ 1 := (fun x v => Host.reduce IntOp.andi x v reducesTo_S4x12x4096x64_S_d0_1_2_3 h_S_) main_v2 main_c
  let main_v4 : FVec F S4x12x4096x64 .f32 := Host.absf main_arg1
  let main_cst_0 : FVec F S_ .f32 := constant S_ .f32 0x7F800000#32
  let main_v5 : FVec F S4x12x4096x64 .f32 := broadcastInDim S4x12x4096x64 ![] bcast_S_S4x12x4096x64 main_cst_0
  let main_v6 : IVec S4x12x4096x64 1 := cmpf .olt main_v4 main_v5
  let main_c_1 : IVec S_ 1 := constantI S_ 1 1#1
  let main_v7 : IVec S_ 1 := (fun x v => Host.reduce IntOp.andi x v reducesTo_S4x12x4096x64_S_d0_1_2_3 h_S_) main_v6 main_c_1
  let main_v8 : IVec S_ 1 := andi main_v3 main_v7
  let main_v9 : FVec F S4x12x4096x64 .f32 := Host.absf main_arg2
  let main_cst_2 : FVec F S_ .f32 := constant S_ .f32 0x7F800000#32
  let main_v10 : FVec F S4x12x4096x64 .f32 := broadcastInDim S4x12x4096x64 ![] bcast_S_S4x12x4096x64 main_cst_2
  let main_v11 : IVec S4x12x4096x64 1 := cmpf .olt main_v9 main_v10
  let main_c_3 : IVec S_ 1 := constantI S_ 1 1#1
  let main_v12 : IVec S_ 1 := (fun x v => Host.reduce IntOp.andi x v reducesTo_S4x12x4096x64_S_d0_1_2_3 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_v13 main_v16
-- ==== Kernel.lean ====
abbrev S4x12x4096x64 : Shape := ⟨4, ![4, 12, 4096, 64]⟩
abbrev S4x4096 : Shape := ⟨2, ![4, 4096]⟩
abbrev S4x12x64x64x64 : Shape := ⟨5, ![4, 12, 64, 64, 64]⟩
abbrev S4x64x64 : Shape := ⟨3, ![4, 64, 64]⟩
abbrev S1x1x64x64x64 : Shape := ⟨5, ![1, 1, 64, 64, 64]⟩
abbrev S1x64x64 : Shape := ⟨3, ![1, 64, 64]⟩
abbrev S64x64x64 : Shape := ⟨3, ![64, 64, 64]⟩
abbrev S64x64 : Shape := ⟨2, ![64, 64]⟩
abbrev S64x1x64 : Shape := ⟨3, ![64, 1, 64]⟩
abbrev S64x64x1 : Shape := ⟨3, ![64, 64, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x64, .f32⟩
  | .hbm, ⟨2, _⟩ => ⟨S4x12x4096x64, .f32⟩
  | .hbm, ⟨3, _⟩ => ⟨S4x4096, .f32⟩
  | .hbm, ⟨4, _⟩ => ⟨S4x12x64x64x64, .f32⟩
  | .hbm, ⟨5, _⟩ => ⟨S4x12x64x64x64, .f32⟩
  | .hbm, ⟨6, _⟩ => ⟨S4x12x64x64x64, .f32⟩
  | .hbm, ⟨7, _⟩ => ⟨S4x64x64, .f32⟩
  | .hbm, ⟨8, _⟩ => ⟨S4x12x64x64x64, .f32⟩
  | .hbm, ⟨9, _⟩ => ⟨S4x12x4096x64, .f32⟩
  | .local _ .vmem, ⟨0, _⟩ => ⟨S1x1x64x64x64, .f32⟩
  | .local _ .vmem, ⟨1, _⟩ => ⟨S1x1x64x64x64, .f32⟩
  | .local _ .vmem, ⟨2, _⟩ => ⟨S1x1x64x64x64, .f32⟩
  | .local _ .vmem, ⟨3, _⟩ => ⟨S1x1x64x64x64, .f32⟩
  | .local _ .vmem, ⟨4, _⟩ => ⟨S1x1x64x64x64, .f32⟩
  | .local _ .vmem, ⟨5, _⟩ => ⟨S1x1x64x64x64, .f32⟩
  | .local _ .vmem, ⟨6, _⟩ => ⟨S1x64x64, .f32⟩
  | .local _ .vmem, ⟨7, _⟩ => ⟨S1x64x64, .f32⟩
  | .local _ .vmem, ⟨8, _⟩ => ⟨S1x1x64x64x64, .f32⟩
  | .local _ .vmem, ⟨9, _⟩ => ⟨S1x1x64x64x64, .f32⟩
  | _, _ => ⟨S4x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x12x4096x64_S4x12x64x64x64 : S4x12x4096x64.ShapeCasts S4x12x64x64x64
  shapeCasts_S4x4096_S4x64x64 : S4x4096.ShapeCasts S4x64x64
  inb_S1x1x64x64x64_S1x1x64x64x64_0_0_0_0_0 : ∀ a, (![0, 0, 0, 0, 0] : Fin 5 → Nat) a + S1x1x64x64x64.size a ≤ S1x1x64x64x64.size a
  h_S1x1x64x64x64 : 0 < S1x1x64x64x64.numel
  shapeCasts_S1x1x64x64x64_S64x64x64 : S1x1x64x64x64.ShapeCasts S64x64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  bitsLt_bf16_f32 : FTy.bits .bf16 < FTy.bits .f32
  shapeCasts_S64x64_S64x1x64 : S64x64.ShapeCasts S64x1x64
  broadcasts_S64x1x64_S64x64x64 : S64x1x64.Broadcasts S64x64x64
  reduces_S64x64x64_S64x64 : S64x64x64.Reduces [2] S64x64
  shapeCasts_S64x64_S64x64x1 : S64x64.ShapeCasts S64x64x1
  broadcasts_S64x64x1_S64x64x64 : S64x64x1.Broadcasts S64x64x64
  shapeCasts_S64x64x64_S1x1x64x64x64 : S64x64x64.ShapeCasts S1x1x64x64x64
  shapeCasts_S4x12x64x64x64_S4x12x4096x64 : S4x12x64x64x64.ShapeCasts S4x12x4096x64
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x64x64.size a ≤ S4x12x64x64x64.size a
  hwx0_0 : ∀ i : grid0.Coords, EltTy.bits .f32 = 32 ∨ (Rect.block (s := S4x12x64x64x64) S1x1x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x64x64.size a ≤ S4x12x64x64x64.size a
  hwx0_1 : ∀ i : grid0.Coords, EltTy.bits .f32 = 32 ∨ (Rect.block (s := S4x12x64x64x64) S1x1x64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x64x64.size a ≤ S4x12x64x64x64.size a
  hwx0_2 : ∀ i : grid0.Coords, EltTy.bits .f32 = 32 ∨ (Rect.block (s := S4x12x64x64x64) S1x1x64x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S4x64x64.size a
  hwx0_3 : ∀ i : grid0.Coords, EltTy.bits .f32 = 32 ∨ (Rect.block (s := S4x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x64x64.size a ≤ S4x12x64x64x64.size a
  hwx0_4 : ∀ i : grid0.Coords, EltTy.bits .f32 = 32 ∨ (Rect.block (s := S4x12x64x64x64) S1x1x64x64x64.size (cc0_transform_4 i) (hinb0_4 i)).WholeWords (EltTy.packing .f32)

variable [Facts₀]

def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf

abbrev win0_0 : Pipeline.Window sig grid0 :=
  Pipeline.Window.ofSpec (Memref.whole main_v0) S1x1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x64x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x64x64x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x12x4096x64 : Shape := ⟨4, ![4, 12, 4096, 64]⟩
abbrev S4x4096 : Shape := ⟨2, ![4, 4096]⟩
abbrev S4x12x64x64x64 : Shape := ⟨5, ![4, 12, 64, 64, 64]⟩
abbrev S_ : Shape := ⟨0, ![]⟩
abbrev S4x1x64x1x64 : Shape := ⟨5, ![4, 1, 64, 1, 64]⟩
abbrev S4x12x64x64 : Shape := ⟨4, ![4, 12, 64, 64]⟩
abbrev S4x12x64x64x1 : Shape := ⟨5, ![4, 12, 64, 64, 1]⟩
abbrev S4x1x64x64x1 : Shape := ⟨5, ![4, 1, 64, 64, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x64, .f32⟩
  | .hbm, ⟨2, _⟩ => ⟨S4x12x4096x64, .f32⟩
  | .hbm, ⟨3, _⟩ => ⟨S4x4096, .f32⟩
  | .hbm, ⟨4, _⟩ => ⟨S4x12x64x64x64, .f32⟩
  | .hbm, ⟨5, _⟩ => ⟨S4x12x64x64x64, .f32⟩
  | .hbm, ⟨6, _⟩ => ⟨S4x12x64x64x64, .f32⟩
  | .hbm, ⟨7, _⟩ => ⟨S4x12x64x64x64, .f32⟩
  | .hbm, ⟨8, _⟩ => ⟨S_, .f32⟩
  | .hbm, ⟨9, _⟩ => ⟨S4x4096, .f32⟩
  | .hbm, ⟨10, _⟩ => ⟨S4x4096, .i1⟩
  | .hbm, ⟨11, _⟩ => ⟨S4x1x64x1x64, .i1⟩
  | .hbm, ⟨12, _⟩ => ⟨S_, .f32⟩
  | .hbm, ⟨13, _⟩ => ⟨S_, .f32⟩
  | .hbm, ⟨14, _⟩ => ⟨S4x1x64x1x64, .f32⟩
  | .hbm, ⟨15, _⟩ => ⟨S4x1x64x1x64, .f32⟩
  | .hbm, ⟨16, _⟩ => ⟨S4x1x64x1x64, .f32⟩
  | .hbm, ⟨17, _⟩ => ⟨S4x12x64x64x64, .f32⟩
  | .hbm, ⟨18, _⟩ => ⟨S4x12x64x64x64, .f32⟩
  | .hbm, ⟨19, _⟩ => ⟨S_, .f32⟩
  | .hbm, ⟨20, _⟩ => ⟨S4x12x64x64, .f32⟩
  | .hbm, ⟨21, _⟩ => ⟨S_, .f32⟩
  | .hbm, ⟨22, _⟩ => ⟨S4x12x64x64, .f32⟩
  | .hbm, ⟨23, _⟩ => ⟨S4x12x64x64, .f32⟩
  | .hbm, ⟨24, _⟩ => ⟨S4x12x64x64x1, .f32⟩
  | .hbm, ⟨25, _⟩ => ⟨S4x12x64x64x64, .f32⟩
  | .hbm, ⟨26, _⟩ => ⟨S4x12x64x64x64, .f32⟩
  | .hbm, ⟨27, _⟩ => ⟨S4x12x64x64x64, .f32⟩
  | .hbm, ⟨28, _⟩ => ⟨S_, .f32⟩
  | .hbm, ⟨29, _⟩ => ⟨S4x12x64x64, .f32⟩
  | .hbm, ⟨30, _⟩ => ⟨S4x12x64x64x1, .f32⟩
  | .hbm, ⟨31, _⟩ => ⟨S4x12x64x64x64, .f32⟩
  | .hbm, ⟨32, _⟩ => ⟨S4x12x64x64x64, .f32⟩
  | .hbm, ⟨33, _⟩ => ⟨S_, .f32⟩
  | .hbm, ⟨34, _⟩ => ⟨S4x4096, .f32⟩
  | .hbm, ⟨35, _⟩ => ⟨S4x4096, .i1⟩
  | .hbm, ⟨36, _⟩ => ⟨S4x1x64x64x1, .i1⟩
  | .hbm, ⟨37, _⟩ => ⟨S_, .f32⟩
  | .hbm, ⟨38, _⟩ => ⟨S4x12x64x64x64, .i1⟩
  | .hbm, ⟨39, _⟩ => ⟨S4x12x64x64x64, .f32⟩
  | .hbm, ⟨40, _⟩ => ⟨S4x12x64x64x64, .f32⟩
  | .hbm, ⟨41, _⟩ => ⟨S4x12x64x64x64, .f32⟩
  | .hbm, ⟨42, _⟩ => ⟨S4x12x4096x64, .f32⟩
  | _, _ => ⟨S4x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  shapeCasts_S4x12x4096x64_S4x12x64x64x64 : S4x12x4096x64.ShapeCasts S4x12x64x64x64
  bcast_S_S4x4096 : S_.BroadcastsInDim S4x4096 (![] : Fin 0 → Fin S4x4096.rank)
  shapeCasts_S4x4096_S4x1x64x1x64 : S4x4096.ShapeCasts S4x1x64x1x64
  bcast_S_S4x1x64x1x64 : S_.BroadcastsInDim S4x1x64x1x64 (![] : Fin 0 → Fin S4x1x64x1x64.rank)
  bcast_S4x1x64x1x64_S4x12x64x64x64_0_1_2_3_4 : S4x1x64x1x64.BroadcastsInDim S4x12x64x64x64 (![0, 1, 2, 3, 4] : Fin 5 → Fin S4x12x64x64x64.rank)
  reducesTo_S4x12x64x64x64_S4x12x64x64_d4 : S4x12x64x64x64.ReducesTo [4] S4x12x64x64
  h_S_ : 0 < S_.numel
  bcast_S_S4x12x64x64 : S_.BroadcastsInDim S4x12x64x64 (![] : Fin 0 → Fin S4x12x64x64.rank)
  bcast_S4x12x64x64_S4x12x64x64x1_0_1_2_3 : S4x12x64x64.BroadcastsInDim S4x12x64x64x1 (![0, 1, 2, 3] : Fin 4 → Fin S4x12x64x64x1.rank)
  bcast_S4x12x64x64x1_S4x12x64x64x64_0_1_2_3_4 : S4x12x64x64x1.BroadcastsInDim S4x12x64x64x64 (![0, 1, 2, 3, 4] : Fin 5 → Fin S4x12x64x64x64.rank)
  shapeCasts_S4x4096_S4x1x64x64x1 : S4x4096.ShapeCasts S4x1x64x64x1
  bcast_S4x1x64x64x1_S4x12x64x64x64_0_1_2_3_4 : S4x1x64x64x1.BroadcastsInDim S4x12x64x64x64 (![0, 1, 2, 3, 4] : Fin 5 → Fin S4x12x64x64x64.rank)
  bcast_S_S4x12x64x64x64 : S_.BroadcastsInDim S4x12x64x64x64 (![] : Fin 0 → Fin S4x12x64x64x64.rank)
  shapeCasts_S4x12x64x64x64_S4x12x4096x64 : S4x12x64x64x64.ShapeCasts S4x12x4096x64
  dot_S4x12x64x64x64_S4x12x64x64x64_S4x12x64x64x64_4_4_3_3_012_012_wf : DotDims.WF S4x12x64x64x64 S4x12x64x64x64 S4x12x64x64x64 [4] [4] [3] [3] [0, 1, 2] [0, 1, 2]
  dot_S4x12x64x64x64_S4x12x64x64x64_S4x12x64x64x64_4_3_3_4_012_012_wf : DotDims.WF S4x12x64x64x64 S4x12x64x64x64 S4x12x64x64x64 [4] [3] [3] [4] [0, 1, 2] [0, 1, 2]

variable [Facts₀]

def dot_S4x12x64x64x64_S4x12x64x64x64_S4x12x64x64x64_4_4_3_3_012_012 : DotDims S4x12x64x64x64 S4x12x64x64x64 S4x12x64x64x64 where
  lhsContracting := [4]
  rhsContracting := [4]
  lhsNonContracting := [3]
  rhsNonContracting := [3]
  lhsBatch := [0, 1, 2]
  rhsBatch := [0, 1, 2]
  wf := dot_S4x12x64x64x64_S4x12x64x64x64_S4x12x64x64x64_4_4_3_3_012_012_wf
def dot_S4x12x64x64x64_S4x12x64x64x64_S4x12x64x64x64_4_3_3_4_012_012 : DotDims S4x12x64x64x64 S4x12x64x64x64 S4x12x64x64x64 where
  lhsContracting := [4]
  rhsContracting := [3]
  lhsNonContracting := [3]
  rhsNonContracting := [4]
  lhsBatch := [0, 1, 2]
  rhsBatch := [0, 1, 2]
  wf := dot_S4x12x64x64x64_S4x12x64x64x64_S4x12x64x64x64_4_3_3_4_012_012_wf

class Facts : Prop extends Facts₀ where

variable [Facts]
-- ==== Proof.HeadSpec.lean ====
/-
  Block-local attention of ONE (batch, head) pair, as a function of coordinates.

  The sequence of 4096 positions is cut into 64 blocks of 64; position (n, x) is row x of block n. Queries
  attend only to the keys of their own block. For block n, query row x, key row y and feature d:

    score n x y  = (∑ d, q n x d · k n y d) + bias n y        bias n y = -10000 where the mask at (n, y) is 0, else 0
    rowMax n x   = the maximum over y of score n x y          (a fold of max from -∞)
    weight n x y = exp (score n x y - rowMax n x)
    rowSum n x   = ∑ y, weight n x y
    prob n x y   = weight n x y / rowSum n x, replaced by 0 where the mask at (n, x) is 0
    out n x d    = ∑ y, prob n x y · v n y d

  Everything is over the extended reals with the exact operations (sum, product, the quotient with its
  conventions at 0 and ±∞, the exponential with exp(-∞) = 0). No finiteness is assumed anywhere: the two
  programs compared against this function compose the same operations in the same order, and the only
  laws used to join them hold on all of [-∞, +∞] — see `mul_keep` and `max_fold_self` below.
-/
import Idealize.ShloMosaic.PureOps.Ideal.Laws
import Idealize.ShloMosaic.Lib.ValueIdx

noncomputable section

open scoped BigOperators

namespace Cert.BlockAttention

open Idealize.ShloMosaic

section Head

variable (q k v : Fin 64 → Fin 64 → Fin 64 → EReal) (mk : Fin 64 → Fin 64 → EReal)

/-- The one-bit answer to "the mask at block `n`, row `y` is zero". -/
def masked (n y : Fin 64) : BitVec 1 :=
  FloatOps.cmpf (F := Ideal) (φ := .f32) .oeq (mk n y) (Ideal.ofBits .f32 0x00000000#32)

/-- The additive key bias: `-10000` on a masked key position, `0` elsewhere. -/
def keyBias (n y : Fin 64) : EReal :=
  Scalar.select (masked mk n y) (Ideal.ofBits .f32 0xC61C4000#32) (Ideal.ofBits .f32 0x00000000#32)

/-- The biased score of query row `x` against key row `y`, both in block `n`. -/
def score (n x y : Fin 64) : EReal := (∑ d : Fin 64, q n x d * k n y d) + keyBias mk n y

/-- The largest score of query row `x` over the keys of its block (from `-∞`). -/
def rowMax (n x : Fin 64) : EReal :=
  (Finset.univ : Finset (Fin 64)).fold max (Ideal.ofBits .f32 0xFF800000#32) (fun y => score q k mk n x y)

/-- The unnormalised softmax weight. -/
def weight (n x y : Fin 64) : EReal := Ideal.exp (score q k mk n x y - rowMax q k mk n x)

/-- The softmax denominator of query row `x`. -/
def rowSum (n x : Fin 64) : EReal := ∑ y : Fin 64, weight q k mk n x y

/-- The attention probability, zeroed on a masked QUERY row. -/
def prob (n x y : Fin 64) : EReal :=
  Scalar.select (masked mk n x) (Ideal.ofBits .f32 0x00000000#32) (Ideal.div (weight q k mk n x y) (rowSum q k mk n x))

/-- The attention output of query row `x` of block `n` at feature `d`. -/
def headOut (n x d : Fin 64) : EReal := ∑ y : Fin 64, prob q k mk n x y * v n y d

end Head

/-! ## The whole arrays

Q, K, V arrive as [4, 12, 64, 64, 64] arrays (batch, head, block, row, feature) and the mask as a flat
[4, 4096] array (batch, position); position `n · 64 + r` is row `r` of block `n`. Every (batch, head) pair is
one independent head; all heads of a batch share that batch's mask. -/

/-- Position (block `n`, row `r`) of batch `b` in the flat mask. -/
def seqPos (b : Fin 4) (n r : Fin 64) : (⟨2, ![4, 4096]⟩ : Shape).Idx :=
  ValueIdx.ix2 b ⟨n.val * 64 + r.val, by have := n.isLt; have := r.isLt; omega⟩

/-- Block-local attention of the whole arrays at (batch `b`, head `h`, block `n`, row `x`, feature `d`). -/
def attnAt (Q K V : (⟨5, ![4, 12, 64, 64, 64]⟩ : Shape).Idx → EReal) (M : (⟨2, ![4, 4096]⟩ : Shape).Idx → EReal)
    (b : Fin 4) (h : Fin 12) (n x d : Fin 64) : EReal :=
  headOut (fun n r d => Q (ValueIdx.ix5 b h n r d)) (fun n r d => K (ValueIdx.ix5 b h n r d))
    (fun n r d => V (ValueIdx.ix5 b h n r d)) (fun n r => M (seqPos b n r)) n x d

/-- The same as one array. -/
def attn (Q K V : (⟨5, ![4, 12, 64, 64, 64]⟩ : Shape).Idx → EReal) (M : (⟨2, ![4, 4096]⟩ : Shape).Idx → EReal) :
    (⟨5, ![4, 12, 64, 64, 64]⟩ : Shape).Idx → EReal :=
  fun i => attnAt Q K V M (i 0) (i 1) (i 2) (i 3) (i 4)

/-- Multiplying by the 0/1 indicator of "not masked" is the same as selecting 0 on the masked bit: on the
    extended reals `p · 0 = 0` and `p · 1 = p` for EVERY `p`, the infinities included. -/
theorem mul_keep (c : BitVec 1) (p : EReal) :
    p * Scalar.select c (Ideal.ofBits .f32 0x00000000#32) (Ideal.ofBits .f32 0x3F800000#32)
      = Scalar.select c (Ideal.ofBits .f32 0x00000000#32) p := by
  have h1 : Ideal.ofBits .f32 0x3F800000#32 = 1 := IdealRules.sign_bit.ideal_onePat .f32
  unfold Scalar.select
  by_cases h : c = 1
  · rw [if_pos h, if_pos h, Ideal.ofBits_zero_f32, mul_zero]
  · rw [if_neg h, if_neg h, h1, mul_one]

/-- A fold of `max` from `b` is already above `b`: taking the maximum with `b` once more changes nothing. -/
theorem max_fold_self (b : EReal) (f : Fin 64 → EReal) :
    max b ((Finset.univ : Finset (Fin 64)).fold max b f) = (Finset.univ : Finset (Fin 64)).fold max b f :=
  max_eq_right ((Finset.le_fold_max b).mpr (Or.inl le_rfl))

end Cert.BlockAttention

end
-- ==== Proof.BodyRead.lean ====
/-
  The kernel body's stored block, read at one index.

  At a grid point the body loads one head's blocks of Q, K, V — each [1,1,64,64,64], viewed [64,64,64] as
  (block n, row, feature) — and the batch's mask [1,64,64], viewed (block n, row). It stores a [1,1,64,64,64]
  block whose entry (n, x, d) is the block-local attention output `headOut` of those four blocks: the two
  matrix products are contractions batched over n (scores: over the feature axis of Q and K; output: over
  the key row of the probabilities and of V), the row maximum and the row sum run over the key axis, and
  the narrowing to bf16 before each product is the identity on extended reals.
-/
import proofs.«148442_j3040836845873_2_alg».proof.Proof.Gen.KernelIdeal.Frame
import proofs.«148442_j3040836845873_2_alg».proof.Proof.HeadSpec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Cert.BlockAttention Idealize.ShloMosaic Idealize.ShloMosaic.ValueIdx

/-! ## Reshapes and broadcasts of the body, read at an index -/

section Layout
variable {α : Type}

/-- A [1,1,64,64,64] block viewed [64,64,64]: entry (n, x, d) is the block's (0, 0, n, x, d). -/
theorem unblock_apply (v : S1x1x64x64x64.Idx → α) (h : S1x1x64x64x64.ShapeCasts S64x64x64) (n x d : Fin 64) :
    shapeCast S64x64x64 v h (ix3 n x d) = v (ix5 (0 : Fin 1) (0 : Fin 1) n x d) :=
  shapeCast_apply v h _ _ (by
    rw [Shape.rowMajor_val_five, Shape.rowMajor_val_three]
    show ((((0 : ℕ) * 1 + 0) * 64 + n.val) * 64 + x.val) * 64 + d.val = (n.val * 64 + x.val) * 64 + d.val
    omega)

/-- A [64,64,64] value stored as a [1,1,64,64,64] block: the block's (u₀, u₁, n, x, d) is entry (n, x, d). -/
theorem reblock_apply (v : S64x64x64.Idx → α) (h : S64x64x64.ShapeCasts S1x1x64x64x64) (u0 u1 : Fin 1) (n x d : Fin 64) :
    shapeCast S1x1x64x64x64 v h (ix5 u0 u1 n x d) = v (ix3 n x d) :=
  shapeCast_apply v h _ _ (by
    rw [Shape.rowMajor_val_five, Shape.rowMajor_val_three]
    have h0 := u0.isLt; have h1 := u1.isLt
    show (n.val * 64 + x.val) * 64 + d.val = (((u0.val * 1 + u1.val) * 64 + n.val) * 64 + x.val) * 64 + d.val
    omega)

/-- The [1,64,64] mask block viewed [64,64]. -/
theorem unblockMask_apply (v : S1x64x64.Idx → α) (h : S1x64x64.ShapeCasts S64x64) (n y : Fin 64) :
    shapeCast S64x64 v h (ix2 n y) = v (ix3 (0 : Fin 1) n y) :=
  shapeCast_apply v h _ _ (by
    rw [Shape.rowMajor_val_three, Shape.rowMajor_val_two]
    show ((0 : ℕ) * 64 + n.val) * 64 + y.val = n.val * 64 + y.val
    omega)

/-- A per-(block, key row) value given a unit QUERY axis, [64,64] → [64,1,64] … -/
theorem castMid_apply (v : S64x64.Idx → α) (h : S64x64.ShapeCasts S64x1x64) (n : Fin 64) (u : Fin 1) (y : Fin 64) :
    shapeCast S64x1x64 v h (ix3 n u y) = v (ix2 n y) :=
  shapeCast_apply v h _ _ (by
    rw [Shape.rowMajor_val_three, Shape.rowMajor_val_two]
    have hu := u.isLt
    show n.val * 64 + y.val = (n.val * 1 + u.val) * 64 + y.val
    omega)

/-- … and repeated along it: every query row sees the same value of its key row. -/
theorem bcastMid_apply (v : S64x1x64.Idx → α) (h : S64x1x64.Broadcasts S64x64x64) (n x y : Fin 64) :
    broadcastTo S64x64x64 v h (ix3 n x y) = v (ix3 n (0 : Fin 1) y) :=
  broadcastTo_apply v h _ _ (fun a => by match a with | ⟨0, _⟩ => rfl | ⟨1, _⟩ => rfl | ⟨2, _⟩ => rfl)

/-- A per-(block, query row) value given a unit KEY axis, [64,64] → [64,64,1] … -/
theorem castLast_apply (v : S64x64.Idx → α) (h : S64x64.ShapeCasts S64x64x1) (n x : Fin 64) (u : Fin 1) :
    shapeCast S64x64x1 v h (ix3 n x u) = v (ix2 n x) :=
  shapeCast_apply v h _ _ (by
    rw [Shape.rowMajor_val_three, Shape.rowMajor_val_two]
    have hu := u.isLt
    show n.val * 64 + x.val = (n.val * 64 + x.val) * 1 + u.val
    omega)

/-- … and repeated along it: every key position sees the same value of its query row. -/
theorem bcastLast_apply (v : S64x64x1.Idx → α) (h : S64x64x1.Broadcasts S64x64x64) (n x y : Fin 64) :
    broadcastTo S64x64x64 v h (ix3 n x y) = v (ix3 n x (0 : Fin 1)) :=
  broadcastTo_apply v h _ _ (fun a => by match a with | ⟨0, _⟩ => rfl | ⟨1, _⟩ => rfl | ⟨2, _⟩ => rfl)

end Layout

/-! ## The two batched contractions, read at an index

Both products are batched over the block axis. Scores contract the FEATURE axis of both operands; the output
contracts the probabilities' key axis against V's row axis. Into the zero accumulator each is the plain sum
over the one contracted coordinate. First, which coordinate of the result or of the contraction index each
operand coordinate is. -/

theorem qk_l0 (i : S64x64x64.Idx) (q : dot_S64x64x64_S64x64x64_S64x64x64_2_2_1_1_0_0.contr.Idx) :
    (dot_S64x64x64_S64x64x64_S64x64x64_2_2_1_1_0_0.lhsIdx i q 0).val = (i 0).val := by
  unfold DotDims.lhsIdx
  rw [dif_pos (show (0 : (Fin S64x64x64.rank)) ∈ dot_S64x64x64_S64x64x64_S64x64x64_2_2_1_1_0_0.lhsBatch by decide)]
  rfl
theorem qk_l1 (i : S64x64x64.Idx) (q : dot_S64x64x64_S64x64x64_S64x64x64_2_2_1_1_0_0.contr.Idx) :
    (dot_S64x64x64_S64x64x64_S64x64x64_2_2_1_1_0_0.lhsIdx i q 1).val = (i 1).val := by
  unfold DotDims.lhsIdx
  rw [dif_neg (show ¬(1 : (Fin S64x64x64.rank)) ∈ dot_S64x64x64_S64x64x64_S64x64x64_2_2_1_1_0_0.lhsBatch by decide), dif_pos (show (1 : (Fin S64x64x64.rank)) ∈ dot_S64x64x64_S64x64x64_S64x64x64_2_2_1_1_0_0.lhsNonContracting by decide)]
  rfl
theorem qk_l2 (i : S64x64x64.Idx) (q : dot_S64x64x64_S64x64x64_S64x64x64_2_2_1_1_0_0.contr.Idx) :
    (dot_S64x64x64_S64x64x64_S64x64x64_2_2_1_1_0_0.lhsIdx i q 2).val = (q ⟨0, by decide⟩).val :=
  dot_S64x64x64_S64x64x64_S64x64x64_2_2_1_1_0_0.lhsIdx_val_of_single rfl i q
theorem qk_r0 (i : S64x64x64.Idx) (q : dot_S64x64x64_S64x64x64_S64x64x64_2_2_1_1_0_0.contr.Idx) :
    (dot_S64x64x64_S64x64x64_S64x64x64_2_2_1_1_0_0.rhsIdx i q 0).val = (i 0).val := by
  unfold DotDims.rhsIdx
  rw [dif_pos (show (0 : (Fin S64x64x64.rank)) ∈ dot_S64x64x64_S64x64x64_S64x64x64_2_2_1_1_0_0.rhsBatch by decide)]
  rfl
theorem qk_r1 (i : S64x64x64.Idx) (q : dot_S64x64x64_S64x64x64_S64x64x64_2_2_1_1_0_0.contr.Idx) :
    (dot_S64x64x64_S64x64x64_S64x64x64_2_2_1_1_0_0.rhsIdx i q 1).val = (i 2).val := by
  unfold DotDims.rhsIdx
  rw [dif_neg (show ¬(1 : (Fin S64x64x64.rank)) ∈ dot_S64x64x64_S64x64x64_S64x64x64_2_2_1_1_0_0.rhsBatch by decide), dif_pos (show (1 : (Fin S64x64x64.rank)) ∈ dot_S64x64x64_S64x64x64_S64x64x64_2_2_1_1_0_0.rhsNonContracting by decide)]
  rfl
theorem qk_r2 (i : S64x64x64.Idx) (q : dot_S64x64x64_S64x64x64_S64x64x64_2_2_1_1_0_0.contr.Idx) :
    (dot_S64x64x64_S64x64x64_S64x64x64_2_2_1_1_0_0.rhsIdx i q 2).val = (q ⟨0, by decide⟩).val :=
  dot_S64x64x64_S64x64x64_S64x64x64_2_2_1_1_0_0.rhsIdx_val_of_single rfl i q
theorem pv_l0 (i : S64x64x64.Idx) (q : dot_S64x64x64_S64x64x64_S64x64x64_2_1_1_2_0_0.contr.Idx) :
    (dot_S64x64x64_S64x64x64_S64x64x64_2_1_1_2_0_0.lhsIdx i q 0).val = (i 0).val := by
  unfold DotDims.lhsIdx
  rw [dif_pos (show (0 : (Fin S64x64x64.rank)) ∈ dot_S64x64x64_S64x64x64_S64x64x64_2_1_1_2_0_0.lhsBatch by decide)]
  rfl
theorem pv_l1 (i : S64x64x64.Idx) (q : dot_S64x64x64_S64x64x64_S64x64x64_2_1_1_2_0_0.contr.Idx) :
    (dot_S64x64x64_S64x64x64_S64x64x64_2_1_1_2_0_0.lhsIdx i q 1).val = (i 1).val := by
  unfold DotDims.lhsIdx
  rw [dif_neg (show ¬(1 : (Fin S64x64x64.rank)) ∈ dot_S64x64x64_S64x64x64_S64x64x64_2_1_1_2_0_0.lhsBatch by decide), dif_pos (show (1 : (Fin S64x64x64.rank)) ∈ dot_S64x64x64_S64x64x64_S64x64x64_2_1_1_2_0_0.lhsNonContracting by decide)]
  rfl
theorem pv_l2 (i : S64x64x64.Idx) (q : dot_S64x64x64_S64x64x64_S64x64x64_2_1_1_2_0_0.contr.Idx) :
    (dot_S64x64x64_S64x64x64_S64x64x64_2_1_1_2_0_0.lhsIdx i q 2).val = (q ⟨0, by decide⟩).val :=
  dot_S64x64x64_S64x64x64_S64x64x64_2_1_1_2_0_0.lhsIdx_val_of_single rfl i q
theorem pv_r0 (i : S64x64x64.Idx) (q : dot_S64x64x64_S64x64x64_S64x64x64_2_1_1_2_0_0.contr.Idx) :
    (dot_S64x64x64_S64x64x64_S64x64x64_2_1_1_2_0_0.rhsIdx i q 0).val = (i 0).val := by
  unfold DotDims.rhsIdx
  rw [dif_pos (show (0 : (Fin S64x64x64.rank)) ∈ dot_S64x64x64_S64x64x64_S64x64x64_2_1_1_2_0_0.rhsBatch by decide)]
  rfl
theorem pv_r1 (i : S64x64x64.Idx) (q : dot_S64x64x64_S64x64x64_S64x64x64_2_1_1_2_0_0.contr.Idx) :
    (dot_S64x64x64_S64x64x64_S64x64x64_2_1_1_2_0_0.rhsIdx i q 1).val = (q ⟨0, by decide⟩).val :=
  dot_S64x64x64_S64x64x64_S64x64x64_2_1_1_2_0_0.rhsIdx_val_of_single rfl i q
theorem pv_r2 (i : S64x64x64.Idx) (q : dot_S64x64x64_S64x64x64_S64x64x64_2_1_1_2_0_0.contr.Idx) :
    (dot_S64x64x64_S64x64x64_S64x64x64_2_1_1_2_0_0.rhsIdx i q 2).val = (i 2).val := by
  unfold DotDims.rhsIdx
  rw [dif_neg (show ¬(2 : (Fin S64x64x64.rank)) ∈ dot_S64x64x64_S64x64x64_S64x64x64_2_1_1_2_0_0.rhsBatch by decide), dif_pos (show (2 : (Fin S64x64x64.rank)) ∈ dot_S64x64x64_S64x64x64_S64x64x64_2_1_1_2_0_0.rhsNonContracting by decide)]
  rfl

/-- Scores: entry (n, x, y) of the product is `∑ d, l (n, x, d) · r (n, y, d)`. -/
theorem scores_apply (l r : FVec Ideal S64x64x64 .bf16) (n x y : Fin 64) :
    matmul dot_S64x64x64_S64x64x64_S64x64x64_2_2_1_1_0_0 none l r (constant S64x64x64 .f32 0x00000000#32) (ix3 n x y)
      = ∑ d : Fin 64, l (ix3 n x d) * r (ix3 n y d) := by
  refine (Ideal.matmul_constant_zero_apply dot_S64x64x64_S64x64x64_S64x64x64_2_2_1_1_0_0 none l r (ix3 n x y)).trans ?_
  rw [← Equiv.sum_comp (contrEquiv1 dot_S64x64x64_S64x64x64_S64x64x64_2_2_1_1_0_0 64 rfl rfl).symm]
  refine Finset.sum_congr rfl fun d _ => ?_
  have hk := contrEquiv1_symm_val dot_S64x64x64_S64x64x64_S64x64x64_2_2_1_1_0_0 64 rfl rfl d
  have el : dot_S64x64x64_S64x64x64_S64x64x64_2_2_1_1_0_0.lhsIdx (ix3 n x y) ((contrEquiv1 dot_S64x64x64_S64x64x64_S64x64x64_2_2_1_1_0_0 64 rfl rfl).symm d) = ix3 n x d :=
    funext fun a => Fin.ext (by
      match a with
      | ⟨0, _⟩ => exact qk_l0 _ _
      | ⟨1, _⟩ => exact qk_l1 _ _
      | ⟨2, _⟩ => exact (qk_l2 _ _).trans hk)
  have er : dot_S64x64x64_S64x64x64_S64x64x64_2_2_1_1_0_0.rhsIdx (ix3 n x y) ((contrEquiv1 dot_S64x64x64_S64x64x64_S64x64x64_2_2_1_1_0_0 64 rfl rfl).symm d) = ix3 n y d :=
    funext fun a => Fin.ext (by
      match a with
      | ⟨0, _⟩ => exact qk_r0 _ _
      | ⟨1, _⟩ => exact qk_r1 _ _
      | ⟨2, _⟩ => exact (qk_r2 _ _).trans hk)
  rw [el, er]

/-- Output: entry (n, x, d) of the product is `∑ y, l (n, x, y) · r (n, y, d)`. -/
theorem mix_apply (l r : FVec Ideal S64x64x64 .bf16) (n x d : Fin 64) :
    matmul dot_S64x64x64_S64x64x64_S64x64x64_2_1_1_2_0_0 none l r (constant S64x64x64 .f32 0x00000000#32) (ix3 n x d)
      = ∑ y : Fin 64, l (ix3 n x y) * r (ix3 n y d) := by
  refine (Ideal.matmul_constant_zero_apply dot_S64x64x64_S64x64x64_S64x64x64_2_1_1_2_0_0 none l r (ix3 n x d)).trans ?_
  rw [← Equiv.sum_comp (contrEquiv1 dot_S64x64x64_S64x64x64_S64x64x64_2_1_1_2_0_0 64 rfl rfl).symm]
  refine Finset.sum_congr rfl fun y _ => ?_
  have hk := contrEquiv1_symm_val dot_S64x64x64_S64x64x64_S64x64x64_2_1_1_2_0_0 64 rfl rfl y
  have el : dot_S64x64x64_S64x64x64_S64x64x64_2_1_1_2_0_0.lhsIdx (ix3 n x d) ((contrEquiv1 dot_S64x64x64_S64x64x64_S64x64x64_2_1_1_2_0_0 64 rfl rfl).symm y) = ix3 n x y :=
    funext fun a => Fin.ext (by
      match a with
      | ⟨0, _⟩ => exact pv_l0 _ _
      | ⟨1, _⟩ => exact pv_l1 _ _
      | ⟨2, _⟩ => exact (pv_l2 _ _).trans hk)
  have er : dot_S64x64x64_S64x64x64_S64x64x64_2_1_1_2_0_0.rhsIdx (ix3 n x d) ((contrEquiv1 dot_S64x64x64_S64x64x64_S64x64x64_2_1_1_2_0_0 64 rfl rfl).symm y) = ix3 n y d :=
    funext fun a => Fin.ext (by
      match a with
      | ⟨0, _⟩ => exact pv_r0 _ _
      | ⟨1, _⟩ => exact (pv_r1 _ _).trans hk
      | ⟨2, _⟩ => exact pv_r2 _ _)
  rw [el, er]

/-! ## The two reductions over the key axis -/

/-- The index of (n, x) with key coordinate `y` put back on the reduced axis is (n, x, y). -/
theorem lift_key (n x y : Fin 64) :
    (reduces_S64x64x64_S64x64 : S64x64x64.Reduces [2] S64x64).lift (ix2 n x) y = ix3 n x y :=
  funext fun a => Fin.ext (by match a with | ⟨0, _⟩ => rfl | ⟨1, _⟩ => rfl | ⟨2, _⟩ => rfl)

/-- The row maximum: the fold of `max` from `-∞`'s word over the key axis. -/
theorem rowMax_apply (src : FVec Ideal S64x64x64 .f32) (hφ : FTy.f32 = FTy.f32 ∨ FTy.f32 = FTy.bf16)
    (hacc : (0xFF800000#32 : BitVec 32) = 0xFF800000#32) (n x : Fin 64) :
    multiReduction .maximumf [2] S64x64 src 0xFF800000#32 reduces_S64x64x64_S64x64 hφ hacc (ix2 n x)
      = (Finset.univ : Finset (Fin 64)).fold max (Ideal.ofBits .f32 0xFF800000#32) (fun y => src (ix3 n x y)) := by
  refine (Ideal.multiReduction_maximumf_single src 0xFF800000#32 reduces_S64x64x64_S64x64 hφ hacc (ix2 n x)).trans ?_
  have e : (src ∘ (reduces_S64x64x64_S64x64 : S64x64x64.Reduces [2] S64x64).lift (ix2 n x)) = fun y : Fin 64 => src (ix3 n x y) :=
    funext fun y => congrArg src (lift_key n x y)
  rw [e]
  rfl

/-- The row sum: the sum over the key axis. -/
theorem rowSum_apply (src : FVec Ideal S64x64x64 .f32) (hφ : FTy.f32 = FTy.f32 ∨ FTy.f32 = FTy.bf16)
    (hacc : (0x00000000#32 : BitVec 32) = 0x00000000#32) (n x : Fin 64) :
    multiReduction .add [2] S64x64 src 0x00000000#32 reduces_S64x64x64_S64x64 hφ hacc (ix2 n x)
      = ∑ y : Fin 64, src (ix3 n x y) := by
  refine (Ideal.multiReduction_add_single src 0x00000000#32 reduces_S64x64x64_S64x64 hφ hacc (ix2 n x)).trans ?_
  exact Finset.sum_congr rfl fun y _ => congrArg src (lift_key n x y)

/-! ## The stored block at an index

The body's arithmetic, stage by stage. Each stage is read at an index from the stage before it, so that no step
handles more than one operation's worth of term. -/

section Payload

/-- The exponential at an index is the exponential of the element. -/
theorem exp_apply {s : Shape} {φ : FTy} (a : FVec Ideal s φ) (i : s.Idx) : exp a i = Ideal.exp (a i) := rfl

theorem hz5 : (![0, 0, 0, 0, 0] : Fin 5 → Nat) = fun _ => 0 := funext fun a => by fin_cases a <;> rfl
theorem hz3 : (![0, 0, 0] : Fin 3 → Nat) = fun _ => 0 := funext fun a => by fin_cases a <;> rfl

variable (x0 x1 x2 : FVec Ideal S1x1x64x64x64 .f32) (x3 : FVec Ideal S1x64x64 .f32)

/-- A loaded Q, K or V block as a function of (block, row, feature) … -/
abbrev rows3 (x : FVec Ideal S1x1x64x64x64 .f32) : Fin 64 → Fin 64 → Fin 64 → EReal :=
  fun n r d => x (ix5 (0 : Fin 1) (0 : Fin 1) n r d)
/-- … and the loaded mask block as a function of (block, row). -/
abbrev rows2 (x : FVec Ideal S1x64x64 .f32) : Fin 64 → Fin 64 → EReal := fun n r => x (ix3 (0 : Fin 1) n r)

/-- The key bias per (block, key row): `-10000` where the mask is zero. -/
def biasVec : FVec Ideal S64x64 .f32 :=
  select (cmpf .oeq (shapeCast S64x64 x3 shapeCasts_S1x64x64_S64x64) (broadcast S64x64 (Scalar.ofBits .f32 0x00000000#32)))
    (broadcast S64x64 (Scalar.ofBits .f32 0xC61C4000#32)) (broadcast S64x64 (Scalar.ofBits .f32 0x00000000#32))

/-- The biased scores. -/
def scoreVec : FVec Ideal S64x64x64 .f32 :=
  addf (matmul dot_S64x64x64_S64x64x64_S64x64x64_2_2_1_1_0_0 none
      (truncf .bf16 (shapeCast S64x64x64 x0 shapeCasts_S1x1x64x64x64_S64x64x64) bitsLt_bf16_f32)
      (truncf .bf16 (shapeCast S64x64x64 x1 shapeCasts_S1x1x64x64x64_S64x64x64) bitsLt_bf16_f32)
      (constant S64x64x64 .f32 0x00000000#32))
    (broadcastTo S64x64x64 (shapeCast S64x1x64 (biasVec x3) shapeCasts_S64x64_S64x1x64) broadcasts_S64x1x64_S64x64x64)

/-- The row maxima of a score array. -/
def maxVec (S : FVec Ideal S64x64x64 .f32) : FVec Ideal S64x64 .f32 :=
  multiReduction .maximumf [2] S64x64 S 0xFF800000#32 reduces_S64x64x64_S64x64 (.inl rfl) rfl

/-- The unnormalised weights of a score array. -/
def expVec (S : FVec Ideal S64x64x64 .f32) : FVec Ideal S64x64x64 .f32 :=
  exp (subf S (broadcastTo S64x64x64 (shapeCast S64x64x1 (maxVec S) shapeCasts_S64x64_S64x64x1) broadcasts_S64x64x1_S64x64x64))

/-- The row sums of a weight array. -/
def sumVec (E : FVec Ideal S64x64x64 .f32) : FVec Ideal S64x64 .f32 :=
  multiReduction .add [2] S64x64 E 0x00000000#32 reduces_S64x64x64_S64x64 (.inl rfl) rfl

/-- A weight array normalised by its row sums. -/
def normVec (E : FVec Ideal S64x64x64 .f32) : FVec Ideal S64x64x64 .f32 :=
  divf E (broadcastTo S64x64x64 (shapeCast S64x64x1 (sumVec E) shapeCasts_S64x64_S64x64x1) broadcasts_S64x64x1_S64x64x64)

/-- The payload the body names for the normalised weights is these stages composed. -/
theorem pay4_eq : k0_pay4 (F := Ideal) x0 x1 x3 = normVec (expVec (scoreVec x0 x1 x3)) := rfl

/-- The 0/1 indicator per (block, query row): `0` where the mask is zero. -/
def keepVec : FVec Ideal S64x64 .f32 :=
  select (cmpf .oeq (shapeCast S64x64 x3 shapeCasts_S1x64x64_S64x64) (broadcast S64x64 (Scalar.ofBits .f32 0x00000000#32)))
    (broadcast S64x64 (Scalar.ofBits .f32 0x00000000#32)) (broadcast S64x64 (Scalar.ofBits .f32 0x3F800000#32))

/-- The stored block from the normalised weights `P`: masked by query row, contracted against V, laid out as the block. -/
def outVec (P : FVec Ideal S64x64x64 .f32) : FVec Ideal S1x1x64x64x64 .f32 :=
  shapeCast S1x1x64x64x64
    (matmul dot_S64x64x64_S64x64x64_S64x64x64_2_1_1_2_0_0 none
      (truncf .bf16 (mulf P (broadcastTo S64x64x64 (shapeCast S64x64x1 (keepVec x3) shapeCasts_S64x64_S64x64x1) broadcasts_S64x64x1_S64x64x64)) bitsLt_bf16_f32)
      (truncf .bf16 (shapeCast S64x64x64 x2 shapeCasts_S1x1x64x64x64_S64x64x64) bitsLt_bf16_f32)
      (constant S64x64x64 .f32 0x00000000#32))
    shapeCasts_S64x64x64_S1x1x64x64x64

/-- The payload the body stores is this. -/
theorem pay1_eq (P : FVec Ideal S64x64x64 .f32) :
    k0_pay1 (F := Ideal) (k0_pay2 (F := Ideal) x2) P (k0_pay5 (F := Ideal) x3) (Scalar.ofBits .f32 0x3F800000#32) (k0_pay6 (F := Ideal))
      = outVec x2 x3 P := rfl

/-- The biased scores at (n, x, y). -/
theorem scoreVec_apply (n x y : Fin 64) : scoreVec x0 x1 x3 (ix3 n x y) = score (rows3 x0) (rows3 x1) (rows2 x3) n x y := by
  unfold scoreVec biasVec
  simp only [addf_apply, scores_apply, truncf_apply, unblock_apply, bcastMid_apply, castMid_apply, select_apply, cmpf_apply,
    unblockMask_apply, broadcast_apply]
  rfl

/-- The row maximum of a score array that is `f` index by index. -/
theorem maxVec_apply (S : FVec Ideal S64x64x64 .f32) (f : Fin 64 → Fin 64 → Fin 64 → EReal)
    (hS : ∀ n x y, S (ix3 n x y) = f n x y) (n x : Fin 64) :
    maxVec S (ix2 n x) = (Finset.univ : Finset (Fin 64)).fold max (Ideal.ofBits .f32 0xFF800000#32) (fun y => f n x y) := by
  refine (rowMax_apply S (.inl rfl) rfl n x).trans ?_
  simp only [hS]

/-- The weights of such a score array. -/
theorem expVec_apply (S : FVec Ideal S64x64x64 .f32) (f : Fin 64 → Fin 64 → Fin 64 → EReal)
    (hS : ∀ n x y, S (ix3 n x y) = f n x y) (n x y : Fin 64) :
    expVec S (ix3 n x y)
      = Ideal.exp (f n x y - (Finset.univ : Finset (Fin 64)).fold max (Ideal.ofBits .f32 0xFF800000#32) (fun y => f n x y)) := by
  unfold expVec
  simp only [exp_apply, subf_apply, bcastLast_apply, castLast_apply, maxVec_apply S f hS, hS]

/-- The row sum of a weight array that is `g` index by index. -/
theorem sumVec_apply (E : FVec Ideal S64x64x64 .f32) (g : Fin 64 → Fin 64 → Fin 64 → EReal)
    (hE : ∀ n x y, E (ix3 n x y) = g n x y) (n x : Fin 64) : sumVec E (ix2 n x) = ∑ y : Fin 64, g n x y := by
  refine (rowSum_apply E (.inl rfl) rfl n x).trans ?_
  simp only [hE]

/-- Such a weight array normalised. -/
theorem normVec_apply (E : FVec Ideal S64x64x64 .f32) (g : Fin 64 → Fin 64 → Fin 64 → EReal)
    (hE : ∀ n x y, E (ix3 n x y) = g n x y) (n x y : Fin 64) :
    normVec E (ix3 n x y) = Ideal.div (g n x y) (∑ y : Fin 64, g n x y) := by
  unfold normVec
  simp only [divf_apply, bcastLast_apply, castLast_apply, sumVec_apply E g hE, hE]

/-- The normalised weights the body computes, before the query-side masking. -/
theorem probs_apply (n x y : Fin 64) :
    k0_pay4 (F := Ideal) x0 x1 x3 (ix3 n x y) = Ideal.div (weight (rows3 x0) (rows3 x1) (rows2 x3) n x y) (rowSum (rows3 x0) (rows3 x1) (rows2 x3) n x) := by
  rw [pay4_eq]
  exact normVec_apply _ (weight (rows3 x0) (rows3 x1) (rows2 x3))
    (fun n x y => expVec_apply _ (score (rows3 x0) (rows3 x1) (rows2 x3)) (scoreVec_apply x0 x1 x3) n x y) n x y

/-- The query-side indicator at (n, x). -/
theorem keepVec_apply (n x : Fin 64) :
    keepVec x3 (ix2 n x)
      = Scalar.select (masked (rows2 x3) n x) (Ideal.ofBits .f32 0x00000000#32) (Ideal.ofBits .f32 0x3F800000#32) := by
  unfold keepVec
  simp only [select_apply, cmpf_apply, unblockMask_apply, broadcast_apply]
  rfl

/-- THE STORED BLOCK at (u₀, u₁, n, x, d) is the head's attention output at (n, x, d). -/
theorem out_apply (u0 u1 : Fin 1) (n x d : Fin 64) :
    out0_4 (F := Ideal) x0 x1 x2 x3 (ix5 u0 u1 n x d) = headOut (rows3 x0) (rows3 x1) (rows3 x2) (rows2 x3) n x d := by
  unfold out0_4
  rw [View.canon_unit_zero hz5]
  simp only [View.ld_unit_zero (S := S1x1x64x64x64) hz5, View.ld_unit_zero (S := S1x64x64) hz3]
  rw [pay1_eq]
  unfold outVec
  rw [reblock_apply, mix_apply]
  unfold headOut prob
  refine Finset.sum_congr rfl fun y _ => ?_
  simp only [truncf_apply, mulf_apply, bcastLast_apply, castLast_apply, unblock_apply, probs_apply, keepVec_apply]
  rw [mul_keep]

end Payload

end Cert.KernelIdeal.Body

end
-- ==== Proof.RegionArray.lean ====
/-
  What the region leaves in its output array.

  The grid has one point per (batch, head) pair. At point `t` — batch `b`, head `h` — the Q, K, V and output
  windows are the [1,1,64,64,64] blocks at block index (b, h, 0, 0, 0) of their [4,12,64,64,64] arrays and the
  mask window is the [1,64,64] block at (b, 0, 0) of the [4,64,64] reshaped mask. So what the point writes
  back is head (b, h) of the block-local attention of the whole arrays, the 48 blocks tile the output array, and
  after the last point the array holds the attention of the arrays the region found — which the host operations
  before the region made by reshaping the arguments.
-/
import proofs.«148442_j3040836845873_2_alg».proof.Proof.Gen.KernelIdeal.Frame
import proofs.«148442_j3040836845873_2_alg».proof.Proof.HeadSpec
import proofs.«148442_j3040836845873_2_alg».proof.Proof.BodyRead
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.RegionValue

open Cert.KernelIdeal Cert.KernelIdeal.Gen Cert.KernelIdeal.Body Cert.BlockAttention
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The index maps over the grid -/

/-- Every window's block index at a point: the Q, K, V and output windows sit at (b, h, 0, 0, 0), the mask window at
    (b, 0, 0), with b ≤ 3 and h ≤ 11 (decided over the 48 points). -/
theorem idx_facts : ∀ t : Fin cfg0.N,
    win0_0.index t (0 : Fin 5) = win0_4.index t (0 : Fin 5)
    ∧ win0_0.index t (1 : Fin 5) = win0_4.index t (1 : Fin 5)
    ∧ win0_0.index t (2 : Fin 5) = 0
    ∧ win0_0.index t (3 : Fin 5) = 0
    ∧ win0_0.index t (4 : Fin 5) = 0
    ∧ win0_1.index t (0 : Fin 5) = win0_4.index t (0 : Fin 5)
    ∧ win0_1.index t (1 : Fin 5) = win0_4.index t (1 : Fin 5)
    ∧ win0_1.index t (2 : Fin 5) = 0
    ∧ win0_1.index t (3 : Fin 5) = 0
    ∧ win0_1.index t (4 : Fin 5) = 0
    ∧ win0_2.index t (0 : Fin 5) = win0_4.index t (0 : Fin 5)
    ∧ win0_2.index t (1 : Fin 5) = win0_4.index t (1 : Fin 5)
    ∧ win0_2.index t (2 : Fin 5) = 0
    ∧ win0_2.index t (3 : Fin 5) = 0
    ∧ win0_2.index t (4 : Fin 5) = 0
    ∧ win0_3.index t (0 : Fin 3) = win0_4.index t (0 : Fin 5)
    ∧ win0_3.index t (1 : Fin 3) = 0
    ∧ win0_3.index t (2 : Fin 3) = 0
    ∧ win0_4.index t (2 : Fin 5) = 0
    ∧ win0_4.index t (3 : Fin 5) = 0
    ∧ win0_4.index t (4 : Fin 5) = 0
    ∧ win0_4.index t (0 : Fin 5) ≤ 3
    ∧ win0_4.index t (1 : Fin 5) ≤ 11 :=
  (by decide +kernel : ∀ t : Fin grid0.N, _)

/-- Every (batch, head) pair is some point's. -/
theorem idx_onto : ∀ (b : Fin 4) (h : Fin 12), ∃ t : Fin cfg0.N,
    win0_4.index t (0 : Fin 5) = b.val ∧ win0_4.index t (1 : Fin 5) = h.val :=
  (by decide +kernel : ∀ (b : Fin 4) (h : Fin 12), ∃ t : Fin grid0.N,
    win0_4.index t (0 : Fin 5) = b.val ∧ win0_4.index t (1 : Fin 5) = h.val)

/-! ## The arrays the region finds

The host operations before the region reshape the arguments: Q, K, V to [4,12,64,64,64] and the mask to [4,64,64]. -/

theorem found_q (c : Dev nD) : (V m c main_v0 : S4x12x64x64x64.Idx → EReal)
    = shapeCast S4x12x64x64x64 (m ((c : Thread nD τ).loc main_arg0)) shapeCasts_S4x12x4096x64_S4x12x64x64x64 := by
  show StableHlo.after hostOps0 (fun b => m (c, b)) (Proc.devRef .tc main_v0) = _
  after_results
  rfl
theorem found_k (c : Dev nD) : (V m c main_v1 : S4x12x64x64x64.Idx → EReal)
    = shapeCast S4x12x64x64x64 (m ((c : Thread nD τ).loc main_arg1)) shapeCasts_S4x12x4096x64_S4x12x64x64x64 := by
  show StableHlo.after hostOps0 (fun b => m (c, b)) (Proc.devRef .tc main_v1) = _
  after_results
  rfl
theorem found_v (c : Dev nD) : (V m c main_v2 : S4x12x64x64x64.Idx → EReal)
    = shapeCast S4x12x64x64x64 (m ((c : Thread nD τ).loc main_arg2)) shapeCasts_S4x12x4096x64_S4x12x64x64x64 := by
  show StableHlo.after hostOps0 (fun b => m (c, b)) (Proc.devRef .tc main_v2) = _
  after_results
  rfl
theorem found_mask (c : Dev nD) : (V m c main_v3 : S4x64x64.Idx → EReal)
    = shapeCast S4x64x64 (m ((c : Thread nD τ).loc main_arg3)) shapeCasts_S4x4096_S4x64x64 := by
  show StableHlo.after hostOps0 (fun b => m (c, b)) (Proc.devRef .tc main_v3) = _
  after_results
  rfl

/-- The reshaped mask at (b, n, r) is the flat mask at position n·64 + r of batch b. -/
theorem mask_at {α : Type} (a3 : S4x4096.Idx → α) (hc : S4x4096.ShapeCasts S4x64x64) (b : Fin 4) (n r : Fin 64) :
    shapeCast S4x64x64 a3 hc (ix3 b n r) = a3 (seqPos b n r) :=
  shapeCast_apply a3 hc _ _ (by
    rw [Shape.rowMajor_val_two, Shape.rowMajor_val_three]
    show b.val * 4096 + (n.val * 64 + r.val) = (b.val * 64 + n.val) * 64 + r.val
    omega)

/-! ## One grid point -/

/-- If the four loaded blocks are head (b, h) of arrays `A0 A1 A2` and batch b of the flat mask `Mf`, the stored block is
    head (b, h) of their block-local attention. -/
theorem point_eq (A0 A1 A2 : (⟨5, ![4, 12, 64, 64, 64]⟩ : Shape).Idx → EReal) (Mf : (⟨2, ![4, 4096]⟩ : Shape).Idx → EReal)
    (x0 x1 x2 : FVec Ideal S1x1x64x64x64 .f32) (x3 : FVec Ideal S1x64x64 .f32) (b : Fin 4) (h : Fin 12)
    (h0 : ∀ n r d : Fin 64, x0 (ix5 (0 : Fin 1) (0 : Fin 1) n r d) = A0 (ix5 b h n r d))
    (h1 : ∀ n r d : Fin 64, x1 (ix5 (0 : Fin 1) (0 : Fin 1) n r d) = A1 (ix5 b h n r d))
    (h2 : ∀ n r d : Fin 64, x2 (ix5 (0 : Fin 1) (0 : Fin 1) n r d) = A2 (ix5 b h n r d))
    (h3 : ∀ n r : Fin 64, x3 (ix3 (0 : Fin 1) n r) = Mf (seqPos b n r))
    (u0 u1 : Fin 1) (n x d : Fin 64) :
    out0_4 (F := Ideal) x0 x1 x2 x3 (ix5 u0 u1 n x d) = attn A0 A1 A2 Mf (ix5 b h n x d) := by
  have e0 : rows3 x0 = fun n r d => A0 (ix5 b h n r d) := funext fun n => funext fun r => funext fun d => h0 n r d
  have e1 : rows3 x1 = fun n r d => A1 (ix5 b h n r d) := funext fun n => funext fun r => funext fun d => h1 n r d
  have e2 : rows3 x2 = fun n r d => A2 (ix5 b h n r d) := funext fun n => funext fun r => funext fun d => h2 n r d
  have e3 : rows2 x3 = fun n r => Mf (seqPos b n r) := funext fun n => funext fun r => h3 n r
  refine (out_apply x0 x1 x2 x3 u0 u1 n x d).trans ?_
  rw [e0, e1, e2, e3]
  rfl

/-! ## What a point writes back, the cover, the final array -/

/-- WHAT POINT `t` WRITES BACK is its block of the block-local attention of the arrays the region found (the mask
    taken flat, as the argument). -/
theorem flushed_eq (c : Dev nD) (t : Fin cfg0.N) :
    (dats m 0 c).flushed 4 t = ((cfg0.win 4).blk t).view.read (Elt Ideal)
      (attn (V m c main_v0) (V m c main_v1) (V m c main_v2) (m ((c : Thread nD τ).loc main_arg3))) := by
  show (cfg0.win 4).cut (grid0.coords t) ((dats m 0 c).after 4 t) = _
  rw [after0_4]
  obtain ⟨e00, e01, e02, e03, e04, e10, e11, e12, e13, e14, e20, e21, e22, e23, e24, e30, e31, e32, z2, z3, z4, hb, hh⟩ := idx_facts t
  funext y
  obtain ⟨u0, u1, n, x, d, rfl⟩ : ∃ (u0 u1 : Fin 1) (n x d : Fin 64), y = ix5 u0 u1 n x d :=
    ⟨y 0, y 1, y 2, y 3, y 4, eq_ix5 y⟩
  have hu0 := u0.isLt
  have hu1 := u1.isLt
  have hemb : ((cfg0.win 4).blk t).view.emb (ix5 u0 u1 n x d)
      = ix5 (⟨win0_4.index t (0 : Fin 5), by omega⟩ : Fin 4) (⟨win0_4.index t (1 : Fin 5), by omega⟩ : Fin 12) n x d :=
    funext fun a => Fin.ext (by
      match a with
      | ⟨0, _⟩ => show win0_4.index t (0 : Fin 5) * 1 + 1 * u0.val = win0_4.index t (0 : Fin 5); omega
      | ⟨1, _⟩ => show win0_4.index t (1 : Fin 5) * 1 + 1 * u1.val = win0_4.index t (1 : Fin 5); omega
      | ⟨2, _⟩ => show win0_4.index t (2 : Fin 5) * 64 + 1 * n.val = n.val; omega
      | ⟨3, _⟩ => show win0_4.index t (3 : Fin 5) * 64 + 1 * x.val = x.val; omega
      | ⟨4, _⟩ => show win0_4.index t (4 : Fin 5) * 64 + 1 * d.val = d.val; omega)
  show out0_4 (iblk m c 0 t) (iblk m c 1 t) (iblk m c 2 t) (iblk m c 3 t) (ix5 u0 u1 n x d)
    = attn (V m c main_v0) (V m c main_v1) (V m c main_v2) (m ((c : Thread nD τ).loc main_arg3))
        (((cfg0.win 4).blk t).view.emb (ix5 u0 u1 n x d))
  rw [hemb]
  refine point_eq (V m c main_v0) (V m c main_v1) (V m c main_v2) (m ((c : Thread nD τ).loc main_arg3))
    (iblk m c 0 t) (iblk m c 1 t) (iblk m c 2 t) (iblk m c 3 t) _ _ ?_ ?_ ?_ ?_ u0 u1 n x d
  · intro n r d
    show V m c main_v0 (((cfg0.win 0).blk t).view.emb (ix5 (0 : Fin 1) (0 : Fin 1) n r d)) = _
    exact congrArg (V m c main_v0) (funext fun a => Fin.ext (by
        match a with
        | ⟨0, _⟩ => show win0_0.index t (0 : Fin 5) * 1 + 1 * 0 = win0_4.index t (0 : Fin 5); omega
        | ⟨1, _⟩ => show win0_0.index t (1 : Fin 5) * 1 + 1 * 0 = win0_4.index t (1 : Fin 5); omega
        | ⟨2, _⟩ => show win0_0.index t (2 : Fin 5) * 64 + 1 * n.val = n.val; omega
        | ⟨3, _⟩ => show win0_0.index t (3 : Fin 5) * 64 + 1 * r.val = r.val; omega
        | ⟨4, _⟩ => show win0_0.index t (4 : Fin 5) * 64 + 1 * d.val = d.val; omega))
  · intro n r d
    show V m c main_v1 (((cfg0.win 1).blk t).view.emb (ix5 (0 : Fin 1) (0 : Fin 1) n r d)) = _
    exact congrArg (V m c main_v1) (funext fun a => Fin.ext (by
        match a with
        | ⟨0, _⟩ => show win0_1.index t (0 : Fin 5) * 1 + 1 * 0 = win0_4.index t (0 : Fin 5); omega
        | ⟨1, _⟩ => show win0_1.index t (1 : Fin 5) * 1 + 1 * 0 = win0_4.index t (1 : Fin 5); omega
        | ⟨2, _⟩ => show win0_1.index t (2 : Fin 5) * 64 + 1 * n.val = n.val; omega
        | ⟨3, _⟩ => show win0_1.index t (3 : Fin 5) * 64 + 1 * r.val = r.val; omega
        | ⟨4, _⟩ => show win0_1.index t (4 : Fin 5) * 64 + 1 * d.val = d.val; omega))
  · intro n r d
    show V m c main_v2 (((cfg0.win 2).blk t).view.emb (ix5 (0 : Fin 1) (0 : Fin 1) n r d)) = _
    exact congrArg (V m c main_v2) (funext fun a => Fin.ext (by
        match a with
        | ⟨0, _⟩ => show win0_2.index t (0 : Fin 5) * 1 + 1 * 0 = win0_4.index t (0 : Fin 5); omega
        | ⟨1, _⟩ => show win0_2.index t (1 : Fin 5) * 1 + 1 * 0 = win0_4.index t (1 : Fin 5); omega
        | ⟨2, _⟩ => show win0_2.index t (2 : Fin 5) * 64 + 1 * n.val = n.val; omega
        | ⟨3, _⟩ => show win0_2.index t (3 : Fin 5) * 64 + 1 * r.val = r.val; omega
        | ⟨4, _⟩ => show win0_2.index t (4 : Fin 5) * 64 + 1 * d.val = d.val; omega))
  · intro n r
    show V m c main_v3 (((cfg0.win 3).blk t).view.emb (ix3 (0 : Fin 1) n r)) = _
    have hk : ((cfg0.win 3).blk t).view.emb (ix3 (0 : Fin 1) n r)
        = ix3 (⟨win0_4.index t (0 : Fin 5), by omega⟩ : Fin 4) n r :=
      funext fun a => Fin.ext (by
        match a with
        | ⟨0, _⟩ => show win0_3.index t (0 : Fin 3) * 1 + 1 * 0 = win0_4.index t (0 : Fin 5); omega
        | ⟨1, _⟩ => show win0_3.index t (1 : Fin 3) * 64 + 1 * n.val = n.val; omega
        | ⟨2, _⟩ => show win0_3.index t (2 : Fin 3) * 64 + 1 * r.val = r.val; omega)
    rw [hk, found_mask]
    exact mask_at _ _ _ n r

/-- An index of the output array is in point `t`'s block iff each coordinate is in the block's range on its axis. -/
theorem mem_blk (t : Fin cfg0.N) (i : S4x12x64x64x64.Idx) :
    i ∈ ((cfg0.win 4).blk t).view.set ↔ ∀ a : Fin 5, win0_4.index t a * S1x1x64x64x64.size a ≤ (i a).val
      ∧ (i a).val < win0_4.index t a * S1x1x64x64x64.size a + S1x1x64x64x64.size a := by
  show i ∈ ((View.whole main_v4).slice (win0_4.rect t)).set ↔ _
  rw [View.set_slice_whole, Rect.mem_set_unit]
  exact Iff.rfl

/-- Every index of the output array is in the block of the point of its (batch, head) pair. -/
theorem cover (i : S4x12x64x64x64.Idx) :
    ∃ t : Fin cfg0.N, (cfg0.win 4).flush t = true ∧ i ∈ ((cfg0.win 4).blk t).view.set := by
  obtain ⟨t, q0, q1⟩ := idx_onto (i 0) (i 1)
  obtain ⟨e00, e01, e02, e03, e04, e10, e11, e12, e13, e14, e20, e21, e22, e23, e24, e30, e31, e32, z2, z3, z4, hb, hh⟩ := idx_facts t
  refine ⟨t, flush0_4 t, ?_⟩
  rw [mem_blk]
  have h2 : (i 2).val < 64 := (i 2).isLt
  have h3 : (i 3).val < 64 := (i 3).isLt
  have h4 : (i 4).val < 64 := (i 4).isLt
  intro a
  match a with
  | ⟨0, _⟩ => show win0_4.index t (0 : Fin 5) * 1 ≤ (i 0).val ∧ (i 0).val < win0_4.index t (0 : Fin 5) * 1 + 1; omega
  | ⟨1, _⟩ => show win0_4.index t (1 : Fin 5) * 1 ≤ (i 1).val ∧ (i 1).val < win0_4.index t (1 : Fin 5) * 1 + 1; omega
  | ⟨2, _⟩ => show win0_4.index t (2 : Fin 5) * 64 ≤ (i 2).val ∧ (i 2).val < win0_4.index t (2 : Fin 5) * 64 + 64; omega
  | ⟨3, _⟩ => show win0_4.index t (3 : Fin 5) * 64 ≤ (i 3).val ∧ (i 3).val < win0_4.index t (3 : Fin 5) * 64 + 64; omega
  | ⟨4, _⟩ => show win0_4.index t (4 : Fin 5) * 64 ≤ (i 4).val ∧ (i 4).val < win0_4.index t (4 : Fin 5) * 64 + 64; omega

/-- THE OUTPUT ARRAY after the region: block-local attention of the reshaped arguments. -/
theorem final (c : Dev nD) :
    (dats m 0 c).arrAt 4 cfg0.N
      = attn (shapeCast S4x12x64x64x64 (m ((c : Thread nD τ).loc main_arg0)) shapeCasts_S4x12x4096x64_S4x12x64x64x64)
          (shapeCast S4x12x64x64x64 (m ((c : Thread nD τ).loc main_arg1)) shapeCasts_S4x12x4096x64_S4x12x64x64x64)
          (shapeCast S4x12x64x64x64 (m ((c : Thread nD τ).loc main_arg2)) shapeCasts_S4x12x4096x64_S4x12x64x64x64)
          (m ((c : Thread nD τ).loc main_arg3)) := by
  rw [← found_q m c, ← found_k m c, ← found_v m c]
  exact (dats m 0 c).arrAt_eq_of_cover 4 _ (fun t _ => flushed_eq m c t) cover

end Cert.KernelIdeal.RegionValue

end
-- ==== Proof.KernelRun.lean ====
/-
  The idealized kernel's run, read back.

  After the region the one remaining host operation reshapes the [4,12,64,64,64] output array to the result's
  [4,12,4096,64]. So every weakly fair execution ends with the result holding that reshape of the block-local
  attention of the reshaped arguments, and with the arguments as they were launched.
-/
import proofs.«148442_j3040836845873_2_alg».proof.Proof.Gen.KernelIdeal.Frame
import proofs.«148442_j3040836845873_2_alg».proof.Proof.RegionArray
import Idealize.ShloMosaic.Lib.StableHlo.Run

set_option maxRecDepth 16384

noncomputable section

namespace Cert.KernelIdeal.RegionValue

open Cert.KernelIdeal Cert.KernelIdeal.Gen Cert.BlockAttention
open Idealize.ShloMosaic Idealize.ShloMosaic.TcCoe Idealize.SL.Sem

variable (m : (ℓ : Loc nD τ sig) → Buf (Elt Ideal) ℓ) (ρ : Dev nD → PrngReg)

/-- The result after the host operation that follows the region: the output array, reshaped. -/
theorem tail_eq (c : Dev nD) :
    Pipeline.afterTail₀ cfgs (dats m) 0 (V0 m) [hostOps1] c main_v5
      = shapeCast S4x12x4096x64 (attn (shapeCast S4x12x64x64x64 (m ((c.tc : Thread nD τ).loc main_arg0)) shapeCasts_S4x12x4096x64_S4x12x64x64x64)
          (shapeCast S4x12x64x64x64 (m ((c.tc : Thread nD τ).loc main_arg1)) shapeCasts_S4x12x4096x64_S4x12x64x64x64)
          (shapeCast S4x12x64x64x64 (m ((c.tc : Thread nD τ).loc main_arg2)) shapeCasts_S4x12x4096x64_S4x12x64x64x64)
          (m ((c.tc : Thread nD τ).loc main_arg3))) shapeCasts_S4x12x64x64x64_S4x12x4096x64 := by
  unfold Pipeline.afterTail₀
  show StableHlo.after hostOps1 _ (Proc.devRef .tc main_v5) = _
  after_results
  exact congrArg (fun A => shapeCast S4x12x4096x64 A shapeCasts_S4x12x64x64x64_S4x12x4096x64)
    ((Pipeline.withArrays_arr spec0 launch0.win.arr_inj c _ _ 4).trans (final m c))

/-- THE RUN: the result at the reshaped attention of the reshaped arguments, the arguments unchanged. -/
theorem run : θ_run defs (onTc (τ := τ) (main (F := Ideal))) ⟨m, fun _ => 0, ρ⟩ fun r => ∀ c : Dev nD,
      r.2.mem ((c.tc : Thread nD τ).loc main_v5)
        = shapeCast S4x12x4096x64 (attn (shapeCast S4x12x64x64x64 (m ((c.tc : Thread nD τ).loc main_arg0)) shapeCasts_S4x12x4096x64_S4x12x64x64x64)
          (shapeCast S4x12x64x64x64 (m ((c.tc : Thread nD τ).loc main_arg1)) shapeCasts_S4x12x4096x64_S4x12x64x64x64)
          (shapeCast S4x12x64x64x64 (m ((c.tc : Thread nD τ).loc main_arg2)) shapeCasts_S4x12x4096x64_S4x12x64x64x64)
          (m ((c.tc : Thread nD τ).loc main_arg3))) shapeCasts_S4x12x64x64x64_S4x12x4096x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.RegionValue

end
-- ==== Proof.RefRead.lean ====
/-
  The reference, read at one index.

  The jnp reference reshapes Q, K, V to [4, 12, 64, 64, 64], contracts Q against K over the feature axis
  (batched over batch, head and block), adds the key bias broadcast from the [4,1,64,1,64] view of the
  mask test, applies jax's softmax over the key axis — the row maximum is taken as max(-∞, rowmax), then
  exp, the row sum and the quotient —, replaces the rows of masked queries by 0 through the
  [4,1,64,64,1] view of the same test, and contracts against V over the key axis. Read at
  (b, h, n, x, d) this is `attnAt` of the three reshaped arrays and the flat mask: each stage below is one
  operation of the reference at an index, from the stages before it.
-/
import proofs.«148442_j3040836845873_2_alg».proof.Proof.Gen.ReferenceIdeal.Read
import proofs.«148442_j3040836845873_2_alg».proof.Proof.HeadSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.BlockAttention Idealize.ShloMosaic Idealize.ShloMosaic.ValueIdx

/-! ## Where each operation reads its operands -/

section Indices
variable (b : Fin 4) (h : Fin 12) (n x y k : Fin 64)

/-- The score at (b,h,n,x,y) multiplies Q's row x … -/
theorem scoreL : lidx_main_v3 (ix5 b h n x y) k = ix5 b h n x k := funext fun a => by
    match a with
    | ⟨0, _⟩ => rfl
    | ⟨1, _⟩ => rfl
    | ⟨2, _⟩ => rfl
    | ⟨3, _⟩ => rfl
    | ⟨4, _⟩ => rfl
/-- … with K's row y, feature by feature. -/
theorem scoreR : ridx_main_v3 (ix5 b h n x y) k = ix5 b h n y k := funext fun a => by
    match a with
    | ⟨0, _⟩ => rfl
    | ⟨1, _⟩ => rfl
    | ⟨2, _⟩ => rfl
    | ⟨3, _⟩ => rfl
    | ⟨4, _⟩ => rfl
/-- The key bias at (b,h,n,x,y) is the mask test at position n·64 + y of batch b. -/
theorem keyPos : idx_main_v6 (idx_main_v8 (ix5 b h n x y)) = seqPos b n y :=
  funext fun a => Fin.ext (by
    have hb := b.isLt; have hn := n.isLt; have hy := y.isLt
    match a with
    | ⟨0, _⟩ => show ((((b.val * 1 + 0) * 64 + n.val) * 1 + 0) * 64 + y.val) / 4096 = b.val; omega
    | ⟨1, _⟩ => show ((((b.val * 1 + 0) * 64 + n.val) * 1 + 0) * 64 + y.val) % 4096 = n.val * 64 + y.val; omega)
/-- The query mask at (b,h,n,x,y) is the mask test at position n·64 + x of batch b. -/
theorem queryPos : idx_main_v23 (idx_main_call1_v0 (ix5 b h n x y)) = seqPos b n x :=
  funext fun a => Fin.ext (by
    have hb := b.isLt; have hn := n.isLt; have hx := x.isLt
    match a with
    | ⟨0, _⟩ => show ((((b.val * 1 + 0) * 64 + n.val) * 64 + x.val) * 1 + 0) / 4096 = b.val; omega
    | ⟨1, _⟩ => show ((((b.val * 1 + 0) * 64 + n.val) * 64 + x.val) * 1 + 0) % 4096 = n.val * 64 + x.val; omega)
/-- The row maximum and the row sum are broadcast back along the key axis. -/
theorem maxPos : idx_main_v13 (idx_main_v14 (ix5 b h n x y)) = ix4 b h n x := funext fun a => by
    match a with
    | ⟨0, _⟩ => rfl
    | ⟨1, _⟩ => rfl
    | ⟨2, _⟩ => rfl
    | ⟨3, _⟩ => rfl
theorem sumPos : idx_main_v18 (idx_main_v19 (ix5 b h n x y)) = ix4 b h n x := funext fun a => by
    match a with
    | ⟨0, _⟩ => rfl
    | ⟨1, _⟩ => rfl
    | ⟨2, _⟩ => rfl
    | ⟨3, _⟩ => rfl
/-- The row sum at (b,h,n,x) runs over the key coordinate. -/
theorem sumTerm : idx_main_v17 (ix4 b h n x) k = ix5 b h n x k := funext fun a => by
    match a with
    | ⟨0, _⟩ => rfl
    | ⟨1, _⟩ => rfl
    | ⟨2, _⟩ => rfl
    | ⟨3, _⟩ => rfl
    | ⟨4, _⟩ => rfl
/-- The output at (b,h,n,x,d) multiplies the probabilities' row x … -/
theorem mixL (d : Fin 64) : lidx_main_v25 (ix5 b h n x d) k = ix5 b h n x k := funext fun a => by
    match a with
    | ⟨0, _⟩ => rfl
    | ⟨1, _⟩ => rfl
    | ⟨2, _⟩ => rfl
    | ⟨3, _⟩ => rfl
    | ⟨4, _⟩ => rfl
/-- … with V's feature d, key row by key row. -/
theorem mixR (d : Fin 64) : ridx_main_v25 (ix5 b h n x d) k = ix5 b h n k d := funext fun a => by
    match a with
    | ⟨0, _⟩ => rfl
    | ⟨1, _⟩ => rfl
    | ⟨2, _⟩ => rfl
    | ⟨3, _⟩ => rfl
    | ⟨4, _⟩ => rfl

end Indices

/-! ## The stages -/

section Stages

variable (a0 a1 a2 : (⟨S4x12x4096x64, .f32⟩ : BufTy).Contents (Elt Ideal)) (a3 : (⟨S4x4096, .f32⟩ : BufTy).Contents (Elt Ideal))
variable (b : Fin 4) (h : Fin 12)

/-- Head (b, h) of the reshaped Q as a function of (block, row, feature) … -/
abbrev hq : Fin 64 → Fin 64 → Fin 64 → EReal := fun n r d => val_main_v0 (F := Ideal) a0 (ix5 b h n r d)
/-- … of K … -/
abbrev hk : Fin 64 → Fin 64 → Fin 64 → EReal := fun n r d => val_main_v1 (F := Ideal) a1 (ix5 b h n r d)
/-- … of V … -/
abbrev hv : Fin 64 → Fin 64 → Fin 64 → EReal := fun n r d => val_main_v2 (F := Ideal) a2 (ix5 b h n r d)
/-- … and batch b's mask as a function of (block, row). -/
abbrev hm : Fin 64 → Fin 64 → EReal := fun n r => a3 (seqPos b n r)

/-- The biased scores. -/
theorem score_apply (n x y : Fin 64) :
    val_main_v9 (F := Ideal) a0 a1 a3 (ix5 b h n x y) = score (hq a0 b h) (hk a1 b h) (hm a3 b) n x y := by
  rw [val_main_v9_apply, val_main_v3_apply, val_main_v8_apply, val_main_v7_apply, val_main_v6_apply, val_main_v5_apply,
    val_main_v4_apply, val_main_cst_apply, val_main_call0_v0_apply, val_main_cst_0_apply, val_main_call0_v1_apply,
    val_main_cst_1_apply, keyPos]
  simp only [scoreL, scoreR]
  rfl

/-- An index of the reduced [4,12,64,64] shape with the key coordinate `y` put back is (b, h, n, x, y). -/
theorem lift_key (hr : S4x12x64x64x64.Reduces [4] S4x12x64x64) (n x y : Fin 64) :
    hr.lift (ix4 b h n x) y = ix5 b h n x y :=
  funext fun a => Fin.ext (by
    match a with
    | ⟨0, _⟩ => rfl
    | ⟨1, _⟩ => rfl
    | ⟨2, _⟩ => rfl
    | ⟨3, _⟩ => rfl
    | ⟨4, _⟩ => rfl)

/-- The row maximum: jax takes `max(-∞, ·)` of the reduction from `-∞`, which changes nothing. -/
theorem rowMax_apply (n x : Fin 64) :
    val_main_v12 (F := Ideal) a0 a1 a3 (ix4 b h n x) = rowMax (hq a0 b h) (hk a1 b h) (hm a3 b) n x := by
  have hr : S4x12x64x64x64.Reduces [4] S4x12x64x64 := by decide
  rw [val_main_v12_apply, val_main_v11_apply, val_main_cst_3_apply]
  unfold val_main_v10
  have key := Host.reduce_eq_fold_single (s := S4x12x64x64x64) (t := S4x12x64x64) (a := (4 : Fin 5)) (u := S_)
    (FloatOps.maximumf (F := Ideal) (φ := .f32)) (val_main_v9 (F := Ideal) a0 a1 a3) (val_main_cst_2 (F := Ideal))
    reducesTo_S4x12x64x64x64_S4x12x64x64_d4 hr h_S_ (ix4 b h n x)
  rw [key]
  have e : (val_main_v9 (F := Ideal) a0 a1 a3 ∘ hr.lift (ix4 b h n x)) = fun y : Fin 64 => score (hq a0 b h) (hk a1 b h) (hm a3 b) n x y :=
    funext fun y => (congrArg (val_main_v9 (F := Ideal) a0 a1 a3) (lift_key b h hr n x y)).trans (score_apply a0 a1 a3 b h n x y)
  rw [e]
  exact max_fold_self _ _

/-- The unnormalised weights. -/
theorem weight_apply (n x y : Fin 64) :
    val_main_v16 (F := Ideal) a0 a1 a3 (ix5 b h n x y) = weight (hq a0 b h) (hk a1 b h) (hm a3 b) n x y := by
  rw [val_main_v16_apply, val_main_v15_apply, val_main_v14_apply, val_main_v13_apply, maxPos, score_apply, rowMax_apply]
  rfl

/-- The row sum, from the zero word. -/
theorem rowSum_apply (n x : Fin 64) :
    val_main_v17 (F := Ideal) a0 a1 a3 (ix4 b h n x) = rowSum (hq a0 b h) (hk a1 b h) (hm a3 b) n x := by
  rw [val_main_v17_apply, val_main_cst_4_apply]
  simp only [sumTerm, weight_apply, Ideal.ofBits_def, Ideal.ofBits_zero_f32, zero_add, rowSum]

/-- The probabilities, zeroed on masked query rows. -/
theorem prob_apply (n x y : Fin 64) :
    val_main_v24 (F := Ideal) a0 a1 a3 (ix5 b h n x y) = prob (hq a0 b h) (hk a1 b h) (hm a3 b) n x y := by
  rw [val_main_v24_apply, val_main_call1_v0_apply, val_main_v23_apply, val_main_v22_apply, val_main_v21_apply,
    val_main_cst_5_apply, val_main_call1_v1_apply, val_main_cst_6_apply, val_main_v20_apply, val_main_v19_apply,
    val_main_v18_apply, queryPos, sumPos, weight_apply, rowSum_apply]
  rfl

/-- The output at (b, h, n, x, d). -/
theorem out_apply (n x d : Fin 64) :
    val_main_v25 (F := Ideal) a0 a1 a2 a3 (ix5 b h n x d)
      = attnAt (val_main_v0 (F := Ideal) a0) (val_main_v1 (F := Ideal) a1) (val_main_v2 (F := Ideal) a2) a3 b h n x d := by
  rw [val_main_v25_apply]
  simp only [mixL, mixR, prob_apply]
  rfl

end Stages

/-- THE REFERENCE'S LAST [4,12,64,64,64] VALUE is block-local attention of the reshaped arguments. -/
theorem ref_eq (a0 a1 a2 : (⟨S4x12x4096x64, .f32⟩ : BufTy).Contents (Elt Ideal)) (a3 : (⟨S4x4096, .f32⟩ : BufTy).Contents (Elt Ideal)) :
    val_main_v25 (F := Ideal) a0 a1 a2 a3
      = attn (val_main_v0 (F := Ideal) a0) (val_main_v1 (F := Ideal) a1) (val_main_v2 (F := Ideal) a2) a3 :=
  funext fun i => by
    obtain ⟨b, h, n, x, d, rfl⟩ : ∃ (b : Fin 4) (h : Fin 12) (n x d : Fin 64), i = ix5 b h n x d :=
      ⟨i 0, i 1, i 2, i 3, i 4, eq_ix5 i⟩
    exact out_apply a0 a1 a2 a3 b h n x d

end Cert.ReferenceIdeal.RefValue

end
-- ==== Proof.lean ====
/-
  Block-local self-attention (blocks of 64 positions, no overlap) on Q, K, V : [4, 12, 4096, 64] and a mask
  [4, 4096]: a Pallas kernel with one grid point per (batch, head) pair against its jnp reference.

  Both programs reshape Q, K, V to [4, 12, 64, 64, 64] (batch, head, block, row, feature) and compute, for every
  block, softmax over the block's keys of (Q·Kᵀ + bias), with bias -10000 on keys whose mask is 0, rows of masked
  queries replaced by 0, times V; the result is reshaped back to [4, 12, 4096, 64]. On the extended reals with
  exact operations the two are the same function of the arguments, index by index — `Cert.BlockAttention.attn`
  (Proof/HeadSpec.lean). The differences between the two texts, and why none matters at the ideal values:
    • the kernel narrows to bf16 before each matrix product — a change of format is the identity;
    • the kernel's products are `tpu.matmul`s into a zero accumulator, batched over the block axis, the
      reference's are `dot_general`s — both are the plain sum over the contracted coordinate;
    • the kernel multiplies the probabilities by a 0/1 indicator of "query not masked", the reference selects
      0 on masked queries — `p · 0 = 0` and `p · 1 = p` for every extended real `p` (`mul_keep`);
    • jax's softmax takes max(-∞, row maximum) — a fold of max from -∞ is already above -∞ (`max_fold_self`);
    • the kernel tests the reshaped mask, the reference reshapes the test — the same flat position either way.
  No law used needs finiteness, so the precondition is never opened.

  The kernel's side: what the body stores at an index (Proof/BodyRead.lean), what each grid point writes back and
  that the 48 blocks tile the output array (Proof/RegionArray.lean), the host reshape after the region
  (Proof/KernelRun.lean). The reference's side: its operations read one at a time at an index (Proof/RefRead.lean).
  The three frames are the generated ones; the ideal pass rewrote nothing, so `preserves` is trivial.
-/
import proofs.«148442_j3040836845873_2_alg».proof.Defs
import proofs.«148442_j3040836845873_2_alg».proof.Proof.Gen.Kernel
import proofs.«148442_j3040836845873_2_alg».proof.Proof.Gen.Kernel.Skeleton
import proofs.«148442_j3040836845873_2_alg».proof.Proof.Gen.Kernel.Launch
import proofs.«148442_j3040836845873_2_alg».proof.Proof.Gen.Kernel.Points
import proofs.«148442_j3040836845873_2_alg».proof.Proof.Gen.Kernel.Frame
import proofs.«148442_j3040836845873_2_alg».proof.Proof.Gen.KernelIdeal
import proofs.«148442_j3040836845873_2_alg».proof.Proof.Gen.KernelIdeal.Skeleton
import proofs.«148442_j3040836845873_2_alg».proof.Proof.Gen.KernelIdeal.Launch
import proofs.«148442_j3040836845873_2_alg».proof.Proof.Gen.KernelIdeal.Points
import proofs.«148442_j3040836845873_2_alg».proof.Proof.Gen.KernelIdeal.Frame
import proofs.«148442_j3040836845873_2_alg».proof.Proof.Gen.ReferenceIdeal
import proofs.«148442_j3040836845873_2_alg».proof.Proof.Gen.ReferenceIdeal.Run
import proofs.«148442_j3040836845873_2_alg».proof.Proof.Gen.ReferenceIdeal.Read
import proofs.«148442_j3040836845873_2_alg».proof.Proof.Gen.Pre_finite_inputs
import proofs.«148442_j3040836845873_2_alg».proof.Proof.HeadSpec
import proofs.«148442_j3040836845873_2_alg».proof.Proof.BodyRead
import proofs.«148442_j3040836845873_2_alg».proof.Proof.RegionArray
import proofs.«148442_j3040836845873_2_alg».proof.Proof.KernelRun
import proofs.«148442_j3040836845873_2_alg».proof.Proof.RefRead
import Idealize.ShloMosaic.Adequacy
import Idealize.ShloMosaic.Init

noncomputable section

namespace Cert.Proof

open Idealize.ShloMosaic Idealize.SL.Sem

/-- The word-level kernel runs and leaves its arguments alone (generated frame). -/
theorem frame_k : Cert.frame_Kernel := fun m ρ _ => Cert.Kernel.Gen.frame m ρ

/-- So does the idealized kernel (generated frame). -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the result at the reshaped block-local attention of the reshaped
    arguments: the kernel by its run read back, the reference by its operations read at an index. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  unfold Cert.ReferenceIdeal.Read.val_main_v26
  rw [Cert.ReferenceIdeal.RefValue.ref_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
